-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S65536x1x64x1 : Shape := ⟨4, ![65536, 1, 64, 1]⟩
abbrev S1x1x256x256 : Shape := ⟨4, ![1, 1, 256, 256]⟩
abbrev S_ : Shape := ⟨0, ![]⟩
abbrev S65536x64 : Shape := ⟨2, ![65536, 64]⟩
abbrev S65536 : Shape := ⟨1, ![65536]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S65536x1x64x1 : S_.BroadcastsInDim S65536x1x64x1 (![] : Fin 0 → Fin S65536x1x64x1.rank)
  reducesTo_S65536x1x64x1_S_d0_1_2_3 : S65536x1x64x1.ReducesTo [0, 1, 2, 3] S_
  bcast_S_S1x1x256x256 : S_.BroadcastsInDim S1x1x256x256 (![] : Fin 0 → Fin S1x1x256x256.rank)
  reducesTo_S1x1x256x256_S_d0_1_2_3 : S1x1x256x256.ReducesTo [0, 1, 2, 3] S_
  shapeCasts_S65536x1x64x1_S65536x64 : S65536x1x64x1.ShapeCasts S65536x64
  reducesTo_S65536x64_S65536_d1 : S65536x64.ReducesTo [1] S65536
  bcast_S_S65536 : S_.BroadcastsInDim S65536 (![] : Fin 0 → Fin S65536.rank)
  reducesTo_S65536_S_d0 : S65536.ReducesTo [0] S_

variable [Facts]

def fn_part1 {F : FTy → Type} [FloatOps F] (main_v13 : IVec S_ 1) (main_v16 : FVec F S65536x64 .f32) (main_cst_4 : FVec F S_ .f32) : IVec S_ 1 :=
  let main_v17 : FVec F S65536 .f32 := (fun x v => Host.reduceAdd x v reducesTo_S65536x64_S65536_d1 h_S_) main_v16 main_cst_4
  let main_cst_5 : FVec F S_ .f32 := constant S_ .f32 0x00000000#32
  let main_v18 : FVec F S65536 .f32 := broadcastInDim S65536 ![] bcast_S_S65536 main_cst_5
  let main_v19 : IVec S65536 1 := cmpf .ogt main_v17 main_v18
  let main_c_6 : IVec S_ 1 := constantI S_ 1 1#1
  let main_v20 : IVec S_ 1 := (fun x v => Host.reduce IntOp.andi x v reducesTo_S65536_S_d0 h_S_) main_v19 main_c_6
  let main_v21 : IVec S_ 1 := andi main_v13 main_v20
  main_v21

def fn {F : FTy → Type} [FloatOps F] (main_arg0 : FVec F S16x64x256x256 .f32) (main_arg1 : FVec F S65536x1x64x1 .f32) (main_arg2 : FVec F S1x1x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S65536x1x64x1 .f32 := Host.absf main_arg1
  let main_cst_0 : FVec F S_ .f32 := constant S_ .f32 0x7F800000#32
  let main_v5 : FVec F S65536x1x64x1 .f32 := broadcastInDim S65536x1x64x1 ![] bcast_S_S65536x1x64x1 main_cst_0
  let main_v6 : IVec S65536x1x64x1 1 := cmpf .olt main_v4 main_v5
  let main_c_1 : IVec S_ 1 := constantI S_ 1 1#1
  let main_v7 : IVec S_ 1 := (fun x v => Host.reduce IntOp.andi x v reducesTo_S65536x1x64x1_S_d0_1_2_3 h_S_) main_v6 main_c_1
  let main_v8 : IVec S_ 1 := andi main_v3 main_v7
  let main_v9 : FVec F S1x1x256x256 .f32 := Host.absf main_arg2
  let main_cst_2 : FVec F S_ .f32 := constant S_ .f32 0x7F800000#32
  let main_v10 : FVec F S1x1x256x256 .f32 := broadcastInDim S1x1x256x256 ![] bcast_S_S1x1x256x256 main_cst_2
  let main_v11 : IVec S1x1x256x256 1 := cmpf .olt main_v9 main_v10
  let main_c_3 : IVec S_ 1 := constantI S_ 1 1#1
  let main_v12 : IVec S_ 1 := (fun x v => Host.reduce IntOp.andi x v reducesTo_S1x1x256x256_S_d0_1_2_3 h_S_) main_v11 main_c_3
  let main_v13 : IVec S_ 1 := andi main_v8 main_v12
  let main_v14 : FVec F S65536x64 .f32 := shapeCast S65536x64 main_arg1 shapeCasts_S65536x1x64x1_S65536x64
  let main_v15 : FVec F S65536x64 .f32 := shapeCast S65536x64 main_arg1 shapeCasts_S65536x1x64x1_S65536x64
  let main_v16 : FVec F S65536x64 .f32 := mulf main_v14 main_v15
  let main_cst_4 : FVec F S_ .f32 := constant S_ .f32 0x00000000#32
  fn_part1 (F := F) main_v13 main_v16 main_cst_4
-- ==== Kernel.lean ====
abbrev S16x64x256x256 : Shape := ⟨4, ![16, 64, 256, 256]⟩
abbrev S65536x1x64x1 : Shape := ⟨4, ![65536, 1, 64, 1]⟩
abbrev S1x1x256x256 : Shape := ⟨4, ![1, 1, 256, 256]⟩
abbrev S65536x64 : Shape := ⟨2, ![65536, 64]⟩
abbrev S256x256x64 : Shape := ⟨3, ![256, 256, 64]⟩
abbrev S64x256x256 : Shape := ⟨3, ![64, 256, 256]⟩
abbrev S_ : Shape := ⟨0, ![]⟩
abbrev S256x256 : Shape := ⟨2, ![256, 256]⟩
abbrev S16x1x256x256 : Shape := ⟨4, ![16, 1, 256, 256]⟩
abbrev S2x64x128x128 : Shape := ⟨4, ![2, 64, 128, 128]⟩
abbrev S64x128x128 : Shape := ⟨3, ![64, 128, 128]⟩
abbrev S128x128 : Shape := ⟨2, ![128, 128]⟩
abbrev S2x1x128x128 : Shape := ⟨4, ![2, 1, 128, 128]⟩
abbrev S1x64x128x128 : Shape := ⟨4, ![1, 64, 128, 128]⟩
abbrev S2x128x128 : Shape := ⟨3, ![2, 128, 128]⟩
abbrev S1x128x128 : Shape := ⟨3, ![1, 128, 128]⟩

abbrev nBuf : Space → Nat
  | .hbm => 12
  | .vmem => 10
  | .smem => 0
  | _ => 0

abbrev bufTy : (tb : Table) → Fin (tcTables nBuf tb) → BufTy
  | .hbm, ⟨0, _⟩ => ⟨S16x64x256x256, .f32⟩
  | .hbm, ⟨1, _⟩ => ⟨S65536x1x64x1, .f32⟩
  | .hbm, ⟨2, _⟩ => ⟨S1x1x256x256, .f32⟩
  | .hbm, ⟨3, _⟩ => ⟨S65536x64, .f32⟩
  | .hbm, ⟨4, _⟩ => ⟨S256x256x64, .f32⟩
  | .hbm, ⟨5, _⟩ => ⟨S64x256x256, .f32⟩
  | .hbm, ⟨6, _⟩ => ⟨S64x256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S16x1x256x256, .f32⟩
  | .local _ .vmem, ⟨0, _⟩ => ⟨S2x64x128x128, .f32⟩
  | .local _ .vmem, ⟨1, _⟩ => ⟨S2x64x128x128, .f32⟩
  | .local _ .vmem, ⟨2, _⟩ => ⟨S64x128x128, .f32⟩
  | .local _ .vmem, ⟨3, _⟩ => ⟨S64x128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S2x1x128x128, .f32⟩
  | .local _ .vmem, ⟨9, _⟩ => ⟨S2x1x128x128, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0_0 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat, arg1.toNat]

abbrev stage0_0 : Fin 2 → Memref sig .tc .vmem S2x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S65536x1x64x1_S65536x64 : S65536x1x64x1.ShapeCasts S65536x64
  shapeCasts_S65536x64_S256x256x64 : S65536x64.ShapeCasts S256x256x64
  transposes_S256x256x64_S64x256x256_2_0_1 : S256x256x64.Transposes [2, 0, 1] S64x256x256
  reducesTo_S64x256x256_S256x256_d0 : S64x256x256.ReducesTo [0] S256x256
  h_S_ : 0 < S_.numel
  shapeCasts_S1x1x256x256_S256x256 : S1x1x256x256.ShapeCasts S256x256
  inb_S2x64x128x128_S2x64x128x128_0_0_0_0 : ∀ a, (![0, 0, 0, 0] : Fin 4 → Nat) a + S2x64x128x128.size a ≤ S2x64x128x128.size a
  h_S2x64x128x128 : 0 < S2x64x128x128.numel
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  shapeCasts_S64x128x128_S1x64x128x128 : S64x128x128.ShapeCasts S1x64x128x128
  broadcasts_S1x64x128x128_S2x64x128x128 : S1x64x128x128.Broadcasts S2x64x128x128
  reduces_S2x64x128x128_S2x128x128 : S2x64x128x128.Reduces [1] S2x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  broadcasts_S1x128x128_S2x128x128 : S1x128x128.Broadcasts S2x128x128
  inb_S2x1x128x128_S2x1x128x128_0_0_0_0 : ∀ a, (![0, 0, 0, 0] : Fin 4 → Nat) a + S2x1x128x128.size a ≤ S2x1x128x128.size a
  h_S2x1x128x128 : 0 < S2x1x128x128.numel
  shapeCasts_S2x1x128x128_S2x128x128 : S2x1x128x128.ShapeCasts S2x128x128
  shapeCasts_S2x128x128_S2x1x128x128 : S2x128x128.ShapeCasts S2x1x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x128x128.size a ≤ S16x64x256x256.size a
  hwx0_0 : ∀ i : grid0.Coords, EltTy.bits .f32 = 32 ∨ (Rect.block (s := S16x64x256x256) S2x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S64x256x256.size a
  hwx0_1 : ∀ i : grid0.Coords, EltTy.bits .f32 = 32 ∨ (Rect.block (s := S64x256x256) S64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S256x256.size a
  hwx0_2 : ∀ i : grid0.Coords, EltTy.bits .f32 = 32 ∨ (Rect.block (s := S256x256) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S256x256.size a
  hwx0_3 : ∀ i : grid0.Coords, EltTy.bits .f32 = 32 ∨ (Rect.block (s := S256x256) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x128x128.size a ≤ S16x1x256x256.size a
  hwx0_4 : ∀ i : grid0.Coords, EltTy.bits .f32 = 32 ∨ (Rect.block (s := S16x1x256x256) S2x1x128x128.size (cc0_transform_4 i) (hinb0_4 i)).WholeWords (EltTy.packing .f32)

variable [Facts₀]

abbrev win0_0 : Pipeline.Window sig grid0 :=
  Pipeline.Window.ofSpec (Memref.whole main_arg0) S2x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x1x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S65536x1x64x1 : Shape := ⟨4, ![65536, 1, 64, 1]⟩
abbrev S1x1x256x256 : Shape := ⟨4, ![1, 1, 256, 256]⟩
abbrev S65536x64 : Shape := ⟨2, ![65536, 64]⟩
abbrev S_ : Shape := ⟨0, ![]⟩
abbrev S65536 : Shape := ⟨1, ![65536]⟩
abbrev S65536x1 : Shape := ⟨2, ![65536, 1]⟩
abbrev S256x256x64 : Shape := ⟨3, ![256, 256, 64]⟩
abbrev S64x256x256 : Shape := ⟨3, ![64, 256, 256]⟩
abbrev S1x64x256x256 : Shape := ⟨4, ![1, 64, 256, 256]⟩
abbrev S16x256x256 : Shape := ⟨3, ![16, 256, 256]⟩
abbrev S16x1x256x256 : Shape := ⟨4, ![16, 1, 256, 256]⟩

abbrev nBuf : Space → Nat
  | .hbm => 21
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S65536x1x64x1, .f32⟩
  | .hbm, ⟨2, _⟩ => ⟨S1x1x256x256, .f32⟩
  | .hbm, ⟨3, _⟩ => ⟨S65536x64, .f32⟩
  | .hbm, ⟨4, _⟩ => ⟨S65536x64, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1, .f32⟩
  | .hbm, ⟨9, _⟩ => ⟨S65536x64, .f32⟩
  | .hbm, ⟨10, _⟩ => ⟨S65536x64, .f32⟩
  | .hbm, ⟨11, _⟩ => ⟨S256x256x64, .f32⟩
  | .hbm, ⟨12, _⟩ => ⟨S64x256x256, .f32⟩
  | .hbm, ⟨13, _⟩ => ⟨S1x64x256x256, .f32⟩
  | .hbm, ⟨14, _⟩ => ⟨S16x64x256x256, .f32⟩
  | .hbm, ⟨15, _⟩ => ⟨S16x64x256x256, .f32⟩
  | .hbm, ⟨16, _⟩ => ⟨S_, .f32⟩
  | .hbm, ⟨17, _⟩ => ⟨S16x256x256, .f32⟩
  | .hbm, ⟨18, _⟩ => ⟨S16x1x256x256, .f32⟩
  | .hbm, ⟨19, _⟩ => ⟨S16x1x256x256, .f32⟩
  | .hbm, ⟨20, _⟩ => ⟨S16x1x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S65536x1x64x1_S65536x64 : S65536x1x64x1.ShapeCasts S65536x64
  reducesTo_S65536x64_S65536_d1 : S65536x64.ReducesTo [1] S65536
  h_S_ : 0 < S_.numel
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x64_S256x256x64 : S65536x64.ShapeCasts S256x256x64
  transposes_S256x256x64_S64x256x256_2_0_1 : S256x256x64.Transposes [2, 0, 1] S64x256x256
  bcast_S64x256x256_S1x64x256x256_1_2_3 : S64x256x256.BroadcastsInDim S1x64x256x256 (![1, 2, 3] : Fin 3 → Fin S1x64x256x256.rank)
  bcast_S1x64x256x256_S16x64x256x256_0_1_2_3 : S1x64x256x256.BroadcastsInDim S16x64x256x256 (![0, 1, 2, 3] : Fin 4 → Fin S16x64x256x256.rank)
  reducesTo_S16x64x256x256_S16x256x256_d1 : S16x64x256x256.ReducesTo [1] S16x256x256
  bcast_S16x256x256_S16x1x256x256_0_2_3 : S16x256x256.BroadcastsInDim S16x1x256x256 (![0, 2, 3] : Fin 3 → Fin S16x1x256x256.rank)
  bcast_S1x1x256x256_S16x1x256x256_0_1_2_3 : S1x1x256x256.BroadcastsInDim S16x1x256x256 (![0, 1, 2, 3] : Fin 4 → Fin S16x1x256x256.rank)

variable [Facts₀]

class Facts : Prop extends Facts₀ where

variable [Facts]
-- ==== Proof.KernelPoint.lean ====
/-
  One grid point of the kernel at the exact instance. The body loads its x block P0 : [2, 64, 128, 128], its weight block
  P1 : [64, 128, 128], its reciprocal-norm block P2 : [128, 128] and its bias block P3 : [128, 128], and stores
      (∑_c P0[b, c, h, w] · P1[c, h, w]) · P2[h, w] + P3[h, w]        at (b, 0, h, w):
  the lane sum over the channel axis of the product with the weight block repeated over the two batch rows, times the
  reciprocal norm, plus the bias, each 2-d block repeated over the batch rows. (The exact lane sum has no start term: its
  zero accumulator is the neutral element.)
-/
import proofs.«174681_j10075993276859_2_alg».proof.Proof.Gen.KernelIdeal.Value
import Idealize.ShloMosaic.PureOps.Ideal.Laws
import Idealize.ShloMosaic.Lib.ValueIdx
import Idealize.ShloMosaic.Lib.Pipeline.Value

noncomputable section

namespace Cert.NormDot.Ker

open Cert.KernelIdeal Cert.KernelIdeal.Gen Cert.KernelIdeal.Value Idealize.ShloMosaic Idealize.ShloMosaic.ValueIdx

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The weight block repeated over the two batch rows, at (b, k, h, w), is the block at (k, h, w). -/
theorem wrep_at (P1 : FVec Ideal S64x128x128 .f32) (b : Fin 2) (k : Fin 64) (h w : Fin 128) :
    (broadcastTo S2x64x128x128 (shapeCast S1x64x128x128 (shapeCast S64x128x128 P1 shapeCasts_S64x128x128_S64x128x128) shapeCasts_S64x128x128_S1x64x128x128) broadcasts_S1x64x128x128_S2x64x128x128) (ix4 b k h w)
      = P1 (ix3 k h w) := by
  have hk := k.isLt
  have hh := h.isLt
  have hw := w.isLt
  refine (broadcastTo_apply _ _ (ix4 b k h w) (ix4 (0 : Fin 1) k h w) (fun a => match a with
    | ⟨0, _⟩ => by show 0 = (if (1 : Nat) = 1 then 0 else b.val); rw [if_pos rfl]
    | ⟨1, _⟩ => by show k.val = (if (64 : Nat) = 1 then 0 else k.val); rw [if_neg (by decide)]
    | ⟨2, _⟩ => by show h.val = (if (128 : Nat) = 1 then 0 else h.val); rw [if_neg (by decide)]
    | ⟨3, _⟩ => by show w.val = (if (128 : Nat) = 1 then 0 else w.val); rw [if_neg (by decide)])).trans ?_
  refine (shapeCast_apply _ _ (ix4 (0 : Fin 1) k h w) (ix3 k h w) (by
    rw [Shape.rowMajor_val_three, Shape.rowMajor_val_four]
    show (k.val * 128 + h.val) * 128 + w.val = (((0 : Nat) * 64 + k.val) * 128 + h.val) * 128 + w.val
    omega)).trans ?_
  exact shapeCast_apply _ _ (ix3 k h w) (ix3 k h w) rfl

/-- The lane sum over the channel axis of x times the repeated weight block, at (b, h, w). -/
theorem dot_at (P0 : FVec Ideal S2x64x128x128 .f32) (P1 : FVec Ideal S64x128x128 .f32) (b : Fin 2) (h w : Fin 128) :
    (multiReduction (F := Ideal) .add [1] S2x128x128 (mulf (F := Ideal) P0 (broadcastTo S2x64x128x128 (shapeCast S1x64x128x128 (shapeCast S64x128x128 P1 shapeCasts_S64x128x128_S64x128x128) shapeCasts_S64x128x128_S1x64x128x128) broadcasts_S1x64x128x128_S2x64x128x128)) 0x00000000#32 reduces_S2x64x128x128_S2x128x128 (.inl rfl) rfl) (ix3 b h w)
      = ∑ k : Fin 64, P0 (ix4 b k h w) * P1 (ix3 k h w) := by
  refine (Ideal.multiReduction_add_single _ 0x00000000#32 reduces_S2x64x128x128_S2x128x128 (.inl rfl) rfl (ix3 b h w)).trans ?_
  refine Finset.sum_congr rfl fun k _ => ?_
  have e : (reduces_S2x64x128x128_S2x128x128).lift (ix3 b h w) k = ix4 b k h w :=
    funext fun a => Fin.ext (by match a with | ⟨0, _⟩ => rfl | ⟨1, _⟩ => rfl | ⟨2, _⟩ => rfl | ⟨3, _⟩ => rfl)
  rw [e]
  exact congrArg (P0 (ix4 b k h w) * ·) (wrep_at P1 b k h w)

/-- What the point leaves in the output block, as a function of its four loaded blocks, at (b, u, h, w). -/
theorem block_at (P0 : FVec Ideal S2x64x128x128 .f32) (P1 : FVec Ideal S64x128x128 .f32) (P2 P3 : FVec Ideal S128x128 .f32)
    (b : Fin 2) (u : Fin 1) (h w : Fin 128) :
    out0_4 (F := Ideal) P0 P1 P2 P3 (ix4 b u h w)
      = (∑ k : Fin 64, P0 (ix4 b k h w) * P1 (ix3 k h w)) * P2 (ix2 h w) + P3 (ix2 h w) := by
  unfold out0_4
  rw [View.ld_unit_zero (S := S2x64x128x128) hz4, View.ld_unit_zero (S := S64x128x128) hz3,
    View.ld_unit_zero (S := S128x128) hz2, View.ld_unit_zero (S := S128x128) hz2, canon4_eq]
  have e0 : ix4_0 (ix4 b u h w) = ix3 b h w :=
    funext fun a => Fin.ext (by match a with | ⟨0, _⟩ => rfl | ⟨1, _⟩ => rfl | ⟨2, _⟩ => rfl)
  have e1 : ix4_1 (ix4 b u h w) = ix2 h w :=
    funext fun a => Fin.ext (by match a with | ⟨0, _⟩ => rfl | ⟨1, _⟩ => rfl)
  have e2 : ix4_2 (ix4 b u h w) = ix2 h w :=
    funext fun a => Fin.ext (by match a with | ⟨0, _⟩ => rfl | ⟨1, _⟩ => rfl)
  dsimp only [E4]
  rw [e0, e1, e2]
  exact congrArg (· * P2 (ix2 h w) + P3 (ix2 h w)) (dot_at P0 P1 b h w)

end Cert.NormDot.Ker

end
-- ==== Proof.LibNormDot.lean ====
/-
  A dot product against a vector divided by its Euclidean norm, on the extended reals.

  For real families x, w over a finite index set with S = ∑ w² > 0, dividing each w_k by √S before the
  contraction with x is the same as contracting first and multiplying by 1/√S afterwards:
      ∑ x_k · (w_k / √S) = (∑ x_k · w_k) · S^(-1/2).
  Over the reals this is one factor pulled out of a finite sum. On the extended reals it needs every term to be a
  real number (so that products and sums are the real ones) and S ≠ 0 (the quotient w_k / 0 and the reciprocal
  root of 0 are conventions, and they do not agree: 0 · (+∞) = 0 while 0 / 0 is −∞). The statement is generic in
  the index type; `coe_sum` is the coercion ℝ → EReal commuting with a finite sum.
-/
import Idealize.ShloMosaic.PureOps.Ideal
import Idealize.ShloMosaic.PureOps.Ideal.Laws

noncomputable section

namespace Cert.NormDot

open Idealize.ShloMosaic

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over real families: the contraction with `w / √S` is the contraction with `w` times `S^(-1/2)`, for `S > 0`. -/
theorem dot_div_sqrt_real {ι : Type*} [Fintype ι] (x w : ι → ℝ) (S : ℝ) (hS : 0 < S) :
    ∑ k, (x k : EReal) * Ideal.div (w k : EReal) (Ideal.sqrt (S : EReal))
      = (∑ k, (x k : EReal) * (w k : EReal)) * Ideal.rsqrt (S : EReal) := by
  have hs : Real.sqrt S ≠ 0 := (Real.sqrt_pos.mpr hS).ne'
  rw [Ideal.sqrt_coe, if_neg (not_lt.mpr hS.le), Ideal.rsqrt_coe, if_neg (not_lt.mpr hS.le), if_neg hS.ne']
  simp only [Ideal.div_coe hs]
  simp only [← EReal.coe_mul, ← coe_sum]
  refine congrArg _ ?_
  rw [Finset.sum_mul]
  refine Finset.sum_congr rfl fun k _ => ?_
  rw [one_div]; ring

/-- The same over extended-real families whose entries are all real numbers, with `S` the sum of squares of `w`
    itself, as a program computes it from a zero start (`0 + ∑ w²`), assumed positive. -/
theorem dot_div_norm {ι : Type*} [Fintype ι] (x w : ι → EReal) (hx : ∀ k, ∃ r : ℝ, x k = (r : EReal))
    (hw : ∀ k, ∃ r : ℝ, w k = (r : EReal)) (hpos : (0 : EReal) < 0 + ∑ k, w k * w k) :
    0 + ∑ k, x k * Ideal.div (w k) (Ideal.sqrt (0 + ∑ k, w k * w k))
      = (∑ k, x k * w k) * Ideal.rsqrt (0 + ∑ k, w k * w k) := by
  choose xr hxr using hx
  choose wr hwr using hw
  obtain rfl : x = fun k => (xr k : EReal) := funext hxr
  obtain rfl : w = fun k => (wr k : EReal) := funext hwr
  have hS : (0 : EReal) + ∑ k, (wr k : EReal) * (wr k : EReal) = ((∑ k, wr k * wr k : ℝ) : EReal) := by
    rw [zero_add, coe_sum]; simp only [EReal.coe_mul]
  rw [hS] at hpos ⊢
  rw [zero_add]
  exact dot_div_sqrt_real xr wr _ (EReal.coe_pos.mp hpos)

end Cert.NormDot

end
-- ==== Proof.Spec.lean ====
/-
  The two results as functions of the argument arrays, index by index, on the extended reals.

  x : [16, 64, 256, 256] (batch, channel, row, column), weight : [65536, 1, 64, 1] (pixel, ·, channel, ·) with the pixel
  number of (row h, column w) being 256·h + w, bias : [1, 1, 256, 256]. For a pixel p let S(p) = 0 + ∑_c weight[p, c]²
  (the squared Euclidean norm of the pixel's channel vector, summed from a zero start). Then at (b, 0, h, w), p = 256·h + w:

    reference : (0 + ∑_c x[b, c, h, w] · (weight[p, c] / √S(p))) + bias[h, w]     -- normalise the vector, then contract
    kernel    : (∑_c x[b, c, h, w] · weight[p, c]) · S(p)^(-1/2) + bias[h, w]      -- contract, then scale by the reciprocal root

  They are the same number when every x and weight entry is real and S(p) > 0 (`kerAt_eq_refAt`): one factor pulled out
  of a finite sum (LibNormDot). Where S(p) = 0 the quotient 0 / 0 and the product 0 · rsqrt 0 are conventions that differ.
-/
import Idealize.ShloMosaic.PureOps.Ideal
import Idealize.ShloMosaic.PureOps.Ideal.Laws
import Idealize.ShloMosaic.Lib.ValueIdx
import proofs.«174681_j10075993276859_2_alg».proof.Proof.LibNormDot

noncomputable section

namespace Cert.NormDot

open Idealize.ShloMosaic Idealize.ShloMosaic.ValueIdx

abbrev XArr := (⟨4, ![16, 64, 256, 256]⟩ : Shape).Idx → EReal
abbrev WArr := (⟨4, ![65536, 1, 64, 1]⟩ : Shape).Idx → EReal
abbrev BArr := (⟨4, ![1, 1, 256, 256]⟩ : Shape).Idx → EReal
abbrev OArr := (⟨4, ![16, 1, 256, 256]⟩ : Shape).Idx → EReal

/-- The pixel number of row `h`, column `w` of the 256 × 256 image. -/
def pix (h w : Fin 256) : Fin 65536 := ⟨h.val * 256 + w.val, by have := h.isLt; have := w.isLt; omega⟩

theorem pix_val (h w : Fin 256) : (pix h w).val = h.val * 256 + w.val := rfl

/-- Channel `k` of pixel `p`'s weight vector. -/
def wrow (W : WArr) (p : Fin 65536) (k : Fin 64) : EReal := W (ix4 p 0 k 0)

/-- The squared norm of pixel `p`'s weight vector, summed from a zero start. -/
def sumsq (W : WArr) (p : Fin 65536) : EReal :=
  Ideal.ofBits .f32 0x00000000#32 + ∑ k : Fin 64, wrow W p k * wrow W p k

/-- The reference at (b, 0, h, w): the channel contraction of x with the normalised weight vector, plus the bias. -/
def refAt (X : XArr) (W : WArr) (B : BArr) (b : Fin 16) (h w : Fin 256) : EReal :=
  (Ideal.ofBits .f32 0x00000000#32
      + ∑ k : Fin 64, X (ix4 b k h w) * Ideal.div (wrow W (pix h w) k) (Ideal.sqrt (sumsq W (pix h w))))
    + B (ix4 0 0 h w)

/-- The kernel at (b, 0, h, w): the channel contraction of x with the raw weight vector, scaled by the reciprocal root
    of the squared norm, plus the bias. -/
def kerAt (X : XArr) (W : WArr) (B : BArr) (b : Fin 16) (h w : Fin 256) : EReal :=
  (∑ k : Fin 64, X (ix4 b k h w) * wrow W (pix h w) k) * Ideal.rsqrt (sumsq W (pix h w)) + B (ix4 0 0 h w)

/-- The reference's result array. -/
def Gref (X : XArr) (W : WArr) (B : BArr) : OArr := fun i => refAt X W B (i 0) (i 2) (i 3)

/-- The kernel's result array. -/
def Gker (X : XArr) (W : WArr) (B : BArr) : OArr := fun i => kerAt X W B (i 0) (i 2) (i 3)

/-- With real entries and a positive squared norm the two agree at every index. -/
theorem kerAt_eq_refAt (X : XArr) (W : WArr) (B : BArr) (hX : ∀ i, ∃ r : ℝ, X i = (r : EReal))
    (hW : ∀ i, ∃ r : ℝ, W i = (r : EReal)) (hpos : ∀ p, Ideal.ofBits .f32 0x00000000#32 < sumsq W p)
    (b : Fin 16) (h w : Fin 256) : kerAt X W B b h w = refAt X W B b h w := by
  unfold kerAt refAt
  refine congrArg (· + B (ix4 0 0 h w)) ?_
  have hp := hpos (pix h w)
  unfold sumsq at hp ⊢
  rw [Ideal.ofBits_zero_f32] at hp ⊢
  exact (dot_div_norm (fun k => X (ix4 b k h w)) (fun k => wrow W (pix h w) k) (fun k => hX _) (fun k => hW _) hp).symm

theorem Gker_eq_Gref (X : XArr) (W : WArr) (B : BArr) (hX : ∀ i, ∃ r : ℝ, X i = (r : EReal))
    (hW : ∀ i, ∃ r : ℝ, W i = (r : EReal)) (hpos : ∀ p, Ideal.ofBits .f32 0x00000000#32 < sumsq W p) :
    Gker X W B = Gref X W B :=
  funext fun i => kerAt_eq_refAt X W B hX hW hpos (i 0) (i 2) (i 3)

end Cert.NormDot

end
-- ==== Proof.KernelArrays.lean ====
/-
  The arrays the kernel's region finds. Before the region the host lays the weight out as [64, 256, 256]
  (reshape [65536, 1, 64, 1] → [65536, 64] → [256, 256, 64], then the transpose that brings the channel axis first), takes
  the reciprocal root of its zero-started sum of squares over the channel axis, and reshapes the bias to [256, 256]. Read at an index:
    laid-out weight (k, h, w) = channel k of pixel 256·h + w;
    reciprocal norm (h, w)    = rsqrt of the pixel's squared norm (`sumsq`);
    bias (h, w)               = bias[0, 0, h, w].
-/
import proofs.«174681_j10075993276859_2_alg».proof.Proof.Gen.KernelIdeal.Frame
import proofs.«174681_j10075993276859_2_alg».proof.Proof.Spec
import Idealize.ShloMosaic.PureOps.Ideal.Laws
import Idealize.ShloMosaic.Lib.ValueIdx
import Idealize.ShloMosaic.Lib.Pipeline.Value
import Idealize.ShloMosaic.Lib.StableHlo.Run

noncomputable section

namespace Cert.NormDot.Ker

open Cert.KernelIdeal Cert.KernelIdeal.Gen Idealize.ShloMosaic Idealize.ShloMosaic.ValueIdx Idealize.ShloMosaic.TcCoe
open Idealize.SL.Sem Idealize.ShloMosaic.StableHlo Cert.NormDot

/-- The weight laid out channel-first. -/
def wchw (W : WArr) : FVec Ideal S64x256x256 .f32 :=
  transpose S64x256x256 [2, 0, 1]
    (shapeCast S256x256x64 (shapeCast S65536x64 W shapeCasts_S65536x1x64x1_S65536x64) shapeCasts_S65536x64_S256x256x64)
    transposes_S256x256x64_S64x256x256_2_0_1

/-- The reciprocal norms. -/
def invnorm (W : WArr) : FVec Ideal S256x256 .f32 :=
  Host.rsqrt (F := Ideal) (Host.reduceAdd (F := Ideal) (mulf (wchw W) (wchw W)) (constant (F := Ideal) S_ .f32 0x00000000#32)
    reducesTo_S64x256x256_S256x256_d0 h_S_)

/-- The bias as a [256, 256] array. -/
def bias2 (B : BArr) : FVec Ideal S256x256 .f32 := shapeCast S256x256 B shapeCasts_S1x1x256x256_S256x256

theorem wchw_at (W : WArr) (k : Fin 64) (h w : Fin 256) : wchw W (ix3 k h w) = wrow W (pix h w) k := by
  have hk := k.isLt
  have hh := h.isLt
  have hw := w.isLt
  unfold wchw wrow
  refine (transpose_apply [2, 0, 1] _ transposes_S256x256x64_S64x256x256_2_0_1 (ix3 k h w) (ix3 h w k) (fun b => match b with
    | ⟨0, _⟩ => rfl
    | ⟨1, _⟩ => rfl
    | ⟨2, _⟩ => rfl)).trans ?_
  refine (shapeCast_apply _ shapeCasts_S65536x64_S256x256x64 (ix3 h w k) (ix2 (pix h w) k) (by
    rw [Shape.rowMajor_val_two, Shape.rowMajor_val_three]
    show (h.val * 256 + w.val) * 64 + k.val = (h.val * 256 + w.val) * 64 + k.val
    rfl)).trans ?_
  exact shapeCast_apply W shapeCasts_S65536x1x64x1_S65536x64 (ix2 (pix h w) k) (ix4 (pix h w) 0 k 0) (by
    rw [Shape.rowMajor_val_four, Shape.rowMajor_val_two]
    show (((h.val * 256 + w.val) * 1 + 0) * 64 + k.val) * 1 + 0 = (h.val * 256 + w.val) * 64 + k.val
    omega)

theorem invnorm_at (W : WArr) (h w : Fin 256) : invnorm W (ix2 h w) = Ideal.rsqrt (sumsq W (pix h w)) := by
  unfold invnorm sumsq
  show Ideal.rsqrt (Host.reduceAdd (F := Ideal) (mulf (F := Ideal) (wchw W) (wchw W)) (constant (F := Ideal) S_ .f32 0x00000000#32)
    reducesTo_S64x256x256_S256x256_d0 h_S_ (ix2 h w)) = _
  refine congrArg Ideal.rsqrt ?_
  generalize hy : mulf (F := Ideal) (wchw W) (wchw W) = y0
  simp only [Host.reduceAdd, Ideal.hostReduceAdd_def]
  rw [Ideal.hostReduceAdd_single reducesTo_S64x256x256_S256x256_d0 (by decide)]
  refine congrArg₂ (· + ·) rfl (Finset.sum_congr rfl fun (k : Fin 64) _ => ?_)
  have e : ∀ hr : S64x256x256.Reduces [0] S256x256, hr.lift (ix2 h w) k = ix3 k h w := fun hr =>
    funext fun a => Fin.ext (by match a with | ⟨0, _⟩ => rfl | ⟨1, _⟩ => rfl | ⟨2, _⟩ => rfl)
  rw [e, ← hy]
  show wchw W (ix3 k h w) * wchw W (ix3 k h w) = _
  rw [wchw_at]

theorem bias2_at (B : BArr) (h w : Fin 256) : bias2 B (ix2 h w) = B (ix4 0 0 h w) := by
  have hh := h.isLt
  have hw := w.isLt
  unfold bias2
  exact shapeCast_apply B shapeCasts_S1x1x256x256_S256x256 (ix2 h w) (ix4 0 0 h w) (by
    rw [Shape.rowMajor_val_four, Shape.rowMajor_val_two]
    show (((0 : Nat) * 1 + 0) * 256 + h.val) * 256 + w.val = h.val * 256 + w.val
    omega)

variable (m : (ℓ : Loc nD τ sig) → Buf (Elt Ideal) ℓ)

/-- The region finds the laid-out weight in window 1's array, -/
theorem V_wchw (c : Dev nD) :
    (V m c main_v0_0 : S64x256x256.Idx → EReal) = wchw (m ((c : Thread nD τ).loc main_arg1)) := by
  dsimp only [Gen.V, Gen.hostOps0]
  after_results
  rfl

/-- the reciprocal norms in window 2's, -/
theorem V_invnorm (c : Dev nD) :
    (V m c main_v0_1 : S256x256.Idx → EReal) = invnorm (m ((c : Thread nD τ).loc main_arg1)) := by
  dsimp only [Gen.V, Gen.hostOps0]
  after_results
  rfl

/-- and the reshaped bias in window 3's. -/
theorem V_bias2 (c : Dev nD) :
    (V m c main_v0_2 : S256x256.Idx → EReal) = bias2 (m ((c : Thread nD τ).loc main_arg2)) := by
  dsimp only [Gen.V, Gen.hostOps0]
  after_results
  rfl

end Cert.NormDot.Ker

end
-- ==== Proof.KernelBlocks.lean ====
/-
  From the grid points to the whole result array. The grid is (row tile, column tile, batch pair) = 2 × 2 × 8; point t writes
  the block of the [16, 1, 256, 256] result at block index (batch pair, 0, row tile, column tile), of size [2, 1, 128, 128]. Its
  x block sits at the same batch pair and tiles (all 64 channels), its weight block at the same tiles (all channels), its
  reciprocal-norm and bias blocks at the same tiles. So what point t writes is the block of ONE function of the arrays
  the region finds,
      (b, 0, h, w) ↦ (∑_c x[b, c, h, w] · wchw[c, h, w]) · invnorm[h, w] + bias2[h, w],
  and the 32 blocks tile the result: the result array is that function, which, with the three host-made arrays read at
  an index, is `Gker` of the arguments.
-/
import proofs.«174681_j10075993276859_2_alg».proof.Proof.Gen.KernelIdeal.Value
import proofs.«174681_j10075993276859_2_alg».proof.Proof.KernelPoint
import proofs.«174681_j10075993276859_2_alg».proof.Proof.KernelArrays

noncomputable section

namespace Cert.NormDot.Ker

open Cert.KernelIdeal Cert.KernelIdeal.Gen Cert.KernelIdeal.Value Idealize.ShloMosaic Idealize.ShloMosaic.ValueIdx
open Idealize.ShloMosaic.TcCoe Idealize.SL.Sem Cert.NormDot
open Idealize.ShloMosaic.Pipeline (Dat)

variable (m : (ℓ : Loc nD τ sig) → Buf (Elt Ideal) ℓ) (ρ : Dev nD → PrngReg)

/-- The result at batch b, row h, column w, from the four arrays the region finds. -/
def arrAtPix (A0 : FVec Ideal S16x64x256x256 .f32) (A1 : FVec Ideal S64x256x256 .f32) (A2 A3 : FVec Ideal S256x256 .f32)
    (b : Fin 16) (h w : Fin 256) : EReal :=
  (∑ k : Fin 64, A0 (ix4 b k h w) * A1 (ix3 k h w)) * A2 (ix2 h w) + A3 (ix2 h w)

/-- The whole result array from the four arrays the region finds. -/
def GV (A0 : FVec Ideal S16x64x256x256 .f32) (A1 : FVec Ideal S64x256x256 .f32) (A2 A3 : FVec Ideal S256x256 .f32) :
    FVec Ideal S16x1x256x256 .f32 := fun i => arrAtPix A0 A1 A2 A3 (i 0) (i 2) (i 3)

/-- The printed index maps over the 32 grid points: every input block sits at the output block's batch pair and tiles. -/
theorem idx_facts : ∀ t : Fin cfg0.N,
    win0_0.index t (0 : Fin 4) = win0_4.index t (0 : Fin 4) ∧ win0_0.index t (1 : Fin 4) = 0
    ∧ win0_0.index t (2 : Fin 4) = win0_4.index t (2 : Fin 4) ∧ win0_0.index t (3 : Fin 4) = win0_4.index t (3 : Fin 4)
    ∧ win0_1.index t (0 : Fin 3) = 0 ∧ win0_1.index t (1 : Fin 3) = win0_4.index t (2 : Fin 4)
    ∧ win0_1.index t (2 : Fin 3) = win0_4.index t (3 : Fin 4)
    ∧ win0_2.index t (0 : Fin 2) = win0_4.index t (2 : Fin 4) ∧ win0_2.index t (1 : Fin 2) = win0_4.index t (3 : Fin 4)
    ∧ win0_3.index t (0 : Fin 2) = win0_4.index t (2 : Fin 4) ∧ win0_3.index t (1 : Fin 2) = win0_4.index t (3 : Fin 4)
    ∧ win0_4.index t (1 : Fin 4) = 0 ∧ win0_4.index t (0 : Fin 4) ≤ 7 ∧ win0_4.index t (2 : Fin 4) ≤ 1
    ∧ win0_4.index t (3 : Fin 4) ≤ 1 :=
  (by decide +kernel : ∀ t : Fin grid0.N, _)

/-- Every block index of the result is some point's. -/
theorem idx_onto : ∀ (q0 : Fin 8) (q2 q3 : Fin 2), ∃ t : Fin cfg0.N, win0_4.index t = ![q0.val, 0, q2.val, q3.val] :=
  (by decide +kernel : ∀ (q0 : Fin 8) (q2 q3 : Fin 2), ∃ t : Fin grid0.N, win0_4.index t = ![q0.val, 0, q2.val, q3.val])

/-- The x block of point t at (b, k, h, w) is x at the output block's batch pair and tiles. -/
theorem read0 (c : Dev nD) (t : Fin cfg0.N) (b : Fin 2) (k : Fin 64) (h w : Fin 128) (B : Fin 16) (H W : Fin 256)
    (hB : B.val = win0_4.index t (0 : Fin 4) * 2 + b.val) (hH : H.val = win0_4.index t (2 : Fin 4) * 128 + h.val)
    (hW : W.val = win0_4.index t (3 : Fin 4) * 128 + w.val) :
    (iblk m c 0 t : FVec Ideal S2x64x128x128 .f32) (ix4 b k h w) = (V m c main_arg0 : FVec Ideal S16x64x256x256 .f32) (ix4 B k H W) := by
  obtain ⟨f00, f01, f02, f03, -⟩ := idx_facts t
  unfold iblk
  rw [View.read_apply]
  refine congrArg (V m c main_arg0) (funext fun a => Fin.ext ?_)
  match a with
  | ⟨0, _⟩ => show win0_0.index t (0 : Fin 4) * 2 + 1 * b.val = B.val; omega
  | ⟨1, _⟩ => show win0_0.index t (1 : Fin 4) * 64 + 1 * k.val = k.val; omega
  | ⟨2, _⟩ => show win0_0.index t (2 : Fin 4) * 128 + 1 * h.val = H.val; omega
  | ⟨3, _⟩ => show win0_0.index t (3 : Fin 4) * 128 + 1 * w.val = W.val; omega

/-- The weight block of point t at (k, h, w). -/
theorem read1 (c : Dev nD) (t : Fin cfg0.N) (k : Fin 64) (h w : Fin 128) (H W : Fin 256)
    (hH : H.val = win0_4.index t (2 : Fin 4) * 128 + h.val) (hW : W.val = win0_4.index t (3 : Fin 4) * 128 + w.val) :
    (iblk m c 1 t : FVec Ideal S64x128x128 .f32) (ix3 k h w) = (V m c main_v0_0 : FVec Ideal S64x256x256 .f32) (ix3 k H W) := by
  obtain ⟨-, -, -, -, f10, f11, f12, -⟩ := idx_facts t
  unfold iblk
  rw [View.read_apply]
  refine congrArg (V m c main_v0_0) (funext fun a => Fin.ext ?_)
  match a with
  | ⟨0, _⟩ => show win0_1.index t (0 : Fin 3) * 64 + 1 * k.val = k.val; omega
  | ⟨1, _⟩ => show win0_1.index t (1 : Fin 3) * 128 + 1 * h.val = H.val; omega
  | ⟨2, _⟩ => show win0_1.index t (2 : Fin 3) * 128 + 1 * w.val = W.val; omega

/-- The reciprocal-norm block of point t at (h, w). -/
theorem read2 (c : Dev nD) (t : Fin cfg0.N) (h w : Fin 128) (H W : Fin 256)
    (hH : H.val = win0_4.index t (2 : Fin 4) * 128 + h.val) (hW : W.val = win0_4.index t (3 : Fin 4) * 128 + w.val) :
    (iblk m c 2 t : FVec Ideal S128x128 .f32) (ix2 h w) = (V m c main_v0_1 : FVec Ideal S256x256 .f32) (ix2 H W) := by
  obtain ⟨-, -, -, -, -, -, -, f20, f21, -⟩ := idx_facts t
  unfold iblk
  rw [View.read_apply]
  refine congrArg (V m c main_v0_1) (funext fun a => Fin.ext ?_)
  match a with
  | ⟨0, _⟩ => show win0_2.index t (0 : Fin 2) * 128 + 1 * h.val = H.val; omega
  | ⟨1, _⟩ => show win0_2.index t (1 : Fin 2) * 128 + 1 * w.val = W.val; omega

/-- The bias block of point t at (h, w). -/
theorem read3 (c : Dev nD) (t : Fin cfg0.N) (h w : Fin 128) (H W : Fin 256)
    (hH : H.val = win0_4.index t (2 : Fin 4) * 128 + h.val) (hW : W.val = win0_4.index t (3 : Fin 4) * 128 + w.val) :
    (iblk m c 3 t : FVec Ideal S128x128 .f32) (ix2 h w) = (V m c main_v0_2 : FVec Ideal S256x256 .f32) (ix2 H W) := by
  obtain ⟨-, -, -, -, -, -, -, -, -, f30, f31, -⟩ := idx_facts t
  unfold iblk
  rw [View.read_apply]
  refine congrArg (V m c main_v0_2) (funext fun a => Fin.ext ?_)
  match a with
  | ⟨0, _⟩ => show win0_3.index t (0 : Fin 2) * 128 + 1 * h.val = H.val; omega
  | ⟨1, _⟩ => show win0_3.index t (1 : Fin 2) * 128 + 1 * w.val = W.val; omega

/-- WHAT POINT t WRITES BACK is its block of `GV` of the arrays the region finds. -/
theorem flushed_eq (c : Dev nD) (t : Fin cfg0.N) :
    (dats m 0 c).flushed 4 t = ((cfg0.win 4).blk t).view.read (Elt Ideal)
      (GV (V m c main_arg0) (V m c main_v0_0) (V m c main_v0_1) (V m c main_v0_2)) := by
  rw [flushed4]
  funext y
  obtain ⟨b, u, h, w, rfl⟩ : ∃ (b : Fin 2) (u : Fin 1) (h w : Fin 128), y = ix4 b u h w :=
    ⟨y 0, y 1, y 2, y 3, eq_ix4 y⟩
  rw [View.read_apply]
  show out0_4 (iblk m c 0 t) (iblk m c 1 t) (iblk m c 2 t) (iblk m c 3 t) (ix4 b u h w) = _
  refine (block_at (iblk m c 0 t) (iblk m c 1 t) (iblk m c 2 t) (iblk m c 3 t) b u h w).trans ?_
  have hB : ((((cfg0.win 4).blk t).view.emb (ix4 b u h w)) 0).val = win0_4.index t (0 : Fin 4) * 2 + b.val := by
    show win0_4.index t (0 : Fin 4) * 2 + 1 * b.val = _; omega
  have hH : ((((cfg0.win 4).blk t).view.emb (ix4 b u h w)) 2).val = win0_4.index t (2 : Fin 4) * 128 + h.val := by
    show win0_4.index t (2 : Fin 4) * 128 + 1 * h.val = _; omega
  have hW : ((((cfg0.win 4).blk t).view.emb (ix4 b u h w)) 3).val = win0_4.index t (3 : Fin 4) * 128 + w.val := by
    show win0_4.index t (3 : Fin 4) * 128 + 1 * w.val = _; omega
  unfold GV arrAtPix
  exact congrArg₂ (· + ·)
    (congrArg₂ (· * ·)
      (Finset.sum_congr rfl fun k _ => congrArg₂ (· * ·) (read0 m c t b k h w _ _ _ hB hH hW) (read1 m c t k h w _ _ hH hW))
      (read2 m c t h w _ _ hH hW))
    (read3 m c t h w _ _ hH hW)

/-- An index of the result is in point t's block iff each coordinate is in the block's range on its axis. -/
theorem mem_blk (t : Fin cfg0.N) (i : S16x1x256x256.Idx) :
    i ∈ ((cfg0.win 4).blk t).view.set ↔ ∀ a : Fin 4, win0_4.index t a * S2x1x128x128.size a ≤ (i a).val
      ∧ (i a).val < win0_4.index t a * S2x1x128x128.size a + S2x1x128x128.size a := by
  show i ∈ ((View.whole main_v1).slice (win0_4.rect t)).set ↔ _
  rw [View.set_slice_whole, Rect.mem_set_unit]
  exact Iff.rfl

/-- The 32 blocks cover the result: index (b, 0, h, w) is in the block of the point at (b / 2, 0, h / 128, w / 128). -/
theorem cover (i : S16x1x256x256.Idx) :
    ∃ t : Fin cfg0.N, (cfg0.win 4).flush t = true ∧ i ∈ ((cfg0.win 4).blk t).view.set := by
  have h0 : (i 0).val < 16 := (i 0).isLt
  have h1 : (i 1).val < 1 := (i 1).isLt
  have h2 : (i 2).val < 256 := (i 2).isLt
  have h3 : (i 3).val < 256 := (i 3).isLt
  obtain ⟨t, ht⟩ := idx_onto ⟨(i 0).val / 2, by omega⟩ ⟨(i 2).val / 128, by omega⟩ ⟨(i 3).val / 128, by omega⟩
  have q0 : win0_4.index t (0 : Fin 4) = (i 0).val / 2 := congrFun ht 0
  have q1 : win0_4.index t (1 : Fin 4) = 0 := congrFun ht 1
  have q2 : win0_4.index t (2 : Fin 4) = (i 2).val / 128 := congrFun ht 2
  have q3 : win0_4.index t (3 : Fin 4) = (i 3).val / 128 := congrFun ht 3
  refine ⟨t, flush0_4 t, ?_⟩
  rw [mem_blk]
  intro a
  match a with
  | ⟨0, _⟩ => show win0_4.index t (0 : Fin 4) * 2 ≤ (i 0).val ∧ (i 0).val < win0_4.index t (0 : Fin 4) * 2 + 2; omega
  | ⟨1, _⟩ => show win0_4.index t (1 : Fin 4) * 1 ≤ (i 1).val ∧ (i 1).val < win0_4.index t (1 : Fin 4) * 1 + 1; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- THE RESULT ARRAY after the run, from the arrays the region finds. -/
theorem final (c : Dev nD) :
    (dats m 0 c).arrAt 4 cfg0.N = GV (V m c main_arg0) (V m c main_v0_0) (V m c main_v0_1) (V m c main_v0_2) :=
  (dats m 0 c).arrAt_eq_of_cover 4 (GV (V m c main_arg0) (V m c main_v0_0) (V m c main_v0_1) (V m c main_v0_2))
    (fun t _ => flushed_eq m c t) cover

/-- With the host-made arrays read at an index, the result at (b, h, w) is the kernel's formula over the arguments. -/
theorem arrAtPix_eq (X : XArr) (W : WArr) (B : BArr) (b : Fin 16) (h w : Fin 256) :
    arrAtPix X (wchw W) (invnorm W) (bias2 B) b h w = kerAt X W B b h w := by
  unfold arrAtPix kerAt
  simp only [wchw_at, invnorm_at, bias2_at]

/-- So the result array is `Gker` of the arguments. -/
theorem GV_eq (c : Dev nD) :
    GV (V m c main_arg0) (V m c main_v0_0) (V m c main_v0_1) (V m c main_v0_2)
      = Gker (m ((c : Thread nD τ).loc main_arg0)) (m ((c : Thread nD τ).loc main_arg1)) (m ((c : Thread nD τ).loc main_arg2)) := by
  rw [V_main_arg0, V_wchw, V_invnorm, V_bias2]
  funext i
  exact arrAtPix_eq _ _ _ (i 0) (i 2) (i 3)

/-- The run, read: the result array at `Gker` of the arguments, the arguments unchanged. -/
theorem run : θ_run defs (onTc (τ := τ) (main (F := Ideal))) ⟨m, fun _ => 0, ρ⟩ fun r => ∀ c : Dev nD,
      r.2.mem ((c : Thread nD τ).loc main_v1)
        = Gker (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (GV_eq m c)), (h c).2⟩)
    (run_blocks m ρ)

end Cert.NormDot.Ker

end
-- ==== Proof.RefValue.lean ====
/-
  The reference's run, read index by index, is `Gref`: following the host operations from the result back to the arguments,
  the entry at (b, 0, h, w) is the zero-started sum over the 64 channels of x[b, c, h, w] times the normalised weight
  weight[p, c] / √S(p) at the pixel p = 256·h + w, plus bias[0, 0, h, w]. The reshape [65536, 64] → [256, 256, 64] followed by
  the transpose to [64, 256, 256] sends (c, h, w) to row 256·h + w, column c, of the normalised matrix; the row's norm is
  the keepdims sum broadcast back along the channels.
-/
import proofs.«174681_j10075993276859_2_alg».proof.Proof.Gen.ReferenceIdeal.Read
import proofs.«174681_j10075993276859_2_alg».proof.Proof.Spec

noncomputable section

namespace Cert.NormDot.Ref

open Cert.ReferenceIdeal Cert.ReferenceIdeal.Read Idealize.ShloMosaic Idealize.ShloMosaic.ValueIdx Cert.NormDot

/-- The reshaped weight matrix at (p, k) is channel k of pixel p. -/
theorem w_at (W : WArr) (p : Fin 65536) (k : Fin 64) : val_main_v0 (F := Ideal) W (ix2 p k) = wrow W p k := by
  have hp := p.isLt
  have hk := k.isLt
  rw [val_main_v0_apply]
  unfold wrow
  refine congrArg W (funext fun a => Fin.ext ?_)
  match a with
  | ⟨0, _⟩ => show (p.val * 64 + k.val) / 64 = p.val; omega
  | ⟨1, _⟩ => rfl
  | ⟨2, _⟩ => show (p.val * 64 + k.val) / 1 % 64 = k.val; omega
  | ⟨3, _⟩ => rfl

/-- The row sum of squares at p is `sumsq`. -/
theorem sumsq_at (W : WArr) (p : Fin 65536) : val_main_v2 (F := Ideal) W (ix1 p) = sumsq W p := by
  rw [val_main_v2_apply]
  unfold sumsq
  refine congrArg₂ (· + ·) rfl (Finset.sum_congr rfl fun k _ => ?_)
  have e : idx_main_v2 (ix1 p) k = ix2 p k :=
    funext fun a => Fin.ext (by match a with | ⟨0, _⟩ => rfl | ⟨1, _⟩ => rfl)
  rw [val_main_v1_apply, e, w_at]
  rfl

/-- The normalised matrix at (p, k): channel k of pixel p over the root of the row's sum of squares. -/
theorem wn_at (W : WArr) (p : Fin 65536) (k : Fin 64) :
    val_main_v6 (F := Ideal) W (ix2 p k) = Ideal.div (wrow W p k) (Ideal.sqrt (sumsq W p)) := by
  have e : idx_main_v3 (idx_main_v5 (ix2 p k)) = ix1 p :=
    funext fun a => Fin.ext (by match a with | ⟨0, _⟩ => rfl)
  rw [val_main_v6_apply, val_main_v5_apply, val_main_v4_apply, val_main_v3_apply, w_at, e, sumsq_at]
  rfl

/-- The reference's result at (b, u, h, w). -/
theorem out_at (X : XArr) (W : WArr) (B : BArr) (b : Fin 16) (u : Fin 1) (h w : Fin 256) :
    val_main_v15 (F := Ideal) X W B (ix4 b u h w) = refAt X W B b h w := by
  have hh := h.isLt
  have hw := w.isLt
  rw [val_main_v15_apply, val_main_v13_apply, val_main_v12_apply, val_main_v14_apply]
  unfold refAt
  refine congrArg₂ (· + ·) (congrArg₂ (· + ·) rfl (Finset.sum_congr rfl fun k _ => ?_)) (congrArg B ?_)
  · have hk := k.isLt
    have e1 : idx_main_v12 (idx_main_v13 (ix4 b u h w)) k = ix4 b k h w :=
      funext fun a => Fin.ext (by match a with | ⟨0, _⟩ => rfl | ⟨1, _⟩ => rfl | ⟨2, _⟩ => rfl | ⟨3, _⟩ => rfl)
    have e2 : idx_main_v7 (idx_main_v8 (idx_main_v9 (idx_main_v10 (ix4 b k h w)))) = ix2 (pix h w) k :=
      funext fun a => Fin.ext (by
        match a with
        | ⟨0, _⟩ => show ((h.val * 256 + w.val) * 64 + k.val) / 64 = h.val * 256 + w.val; omega
        | ⟨1, _⟩ => show ((h.val * 256 + w.val) * 64 + k.val) % 64 = k.val; omega)
    rw [e1, val_main_v11_apply, val_main_v10_apply, val_main_v9_apply, val_main_v8_apply, val_main_v7_apply, e2, wn_at]
    rfl
  · exact funext fun a => Fin.ext (by match a with | ⟨0, _⟩ => rfl | ⟨1, _⟩ => rfl | ⟨2, _⟩ => rfl | ⟨3, _⟩ => rfl)

/-- The reference's result array is `Gref` of the arguments. -/
theorem val_eq_Gref (X : XArr) (W : WArr) (B : BArr) : val_main_v15 (F := Ideal) X W B = Gref X W B := by
  funext i
  obtain ⟨b, u, h, w, rfl⟩ : ∃ (b : Fin 16) (u : Fin 1) (h w : Fin 256), i = ix4 b u h w :=
    ⟨i 0, i 1, i 2, i 3, eq_ix4 i⟩
  exact out_at X W B b u h w

end Cert.NormDot.Ref

end
-- ==== Proof.PreRead.lean ====
/-
  What the precondition says of the argument arrays, at the exact instance: every entry of x and of weight is a real number
  (its absolute value is below +∞), and every pixel's weight vector has a positive squared norm, 0 < 0 + ∑_c weight[p, c]²
  — the reference's own divisor √S(p) is then not zero. (The bias is finite too; nothing below needs it.)
-/
import proofs.«174681_j10075993276859_2_alg».proof.Pre_finite_inputs
import proofs.«174681_j10075993276859_2_alg».proof.Proof.Spec
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.NormDot.Pre

open Cert.Pre_finite_inputs Idealize.ShloMosaic Idealize.ShloMosaic.ValueIdx Cert.NormDot

instance : Subsingleton S_.Idx := ⟨fun a b => funext fun d => d.elim0⟩

theorem ofBool_eq_one (b : Bool) : BitVec.ofBool b = 1#1 ↔ b = true := by cases b <;> decide

theorem inf_word : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_word] at h
  have h' : max x (-x) < ⊤ := by
    have := (ofBool_eq_one _).mp h
    exact of_decide_eq_true this
  induction x using EReal.rec with
  | bot => exact absurd h' (by simp)
  | coe r => exact ⟨r, rfl⟩
  | top => exact absurd h' (by simp)

/-- A comparison "greater than the zero word" that answers 1 is the strict inequality. -/
theorem pos_of_cmp (s : EReal) (h : Ideal.cmp .ogt s (Ideal.ofBits .f32 0x00000000#32) = 1#1) :
    Ideal.ofBits .f32 0x00000000#32 < s :=
  of_decide_eq_true ((ofBool_eq_one _).mp h)

/-- The zero-started sum of squares along the rows of the reshaped weight matrix, at row p, is `sumsq`. -/
theorem sumsq_read (hc : S65536x1x64x1.ShapeCasts S65536x64) (hr : S65536x64.ReducesTo [1] S65536) (h0 : 0 < S_.numel)
    (W : WArr) (p : Fin 65536) :
    Host.reduceAdd (F := Ideal) (mulf (F := Ideal) (φ := .f32) (shapeCast S65536x64 W hc) (shapeCast S65536x64 W hc))
      (constant (F := Ideal) S_ .f32 0x00000000#32) hr h0 (ix1 p) = sumsq W p := by
  have hp := p.isLt
  unfold sumsq
  generalize hy : mulf (F := Ideal) (φ := .f32) (shapeCast S65536x64 W hc) (shapeCast S65536x64 W hc) = y0
  simp only [Host.reduceAdd, Ideal.hostReduceAdd_def]
  rw [Ideal.hostReduceAdd_single hr (by decide)]
  refine congrArg₂ (· + ·) rfl (Finset.sum_congr rfl fun (k : Fin 64) _ => ?_)
  have hk := k.isLt
  have e : ∀ hd : S65536x64.Reduces [1] S65536, hd.lift (ix1 p) k = ix2 p k := fun hd =>
    funext fun a => Fin.ext (by match a with | ⟨0, _⟩ => rfl | ⟨1, _⟩ => rfl)
  have ew : shapeCast S65536x64 W hc (ix2 p k) = wrow W p k := by
    unfold wrow
    exact shapeCast_apply W hc (ix2 p k) (ix4 p 0 k 0) (by
      rw [Shape.rowMajor_val_four, Shape.rowMajor_val_two]
      show ((p.val * 1 + 0) * 64 + k.val) * 1 + 0 = p.val * 64 + k.val
      omega)
  rw [e, ← hy]
  show shapeCast S65536x64 W hc (ix2 p k) * shapeCast S65536x64 W hc (ix2 p k) = _
  rw [ew]

variable [Cert.Pre_finite_inputs.Facts]

/-- The precondition, read. -/
theorem decode (X : XArr) (W : WArr) (B : BArr) (h : fn (F := Ideal) X W B = fun _ => 1#1) :
    (∀ i, ∃ r : ℝ, X i = (r : EReal)) ∧ (∀ i, ∃ r : ℝ, W i = (r : EReal))
      ∧ ∀ p, Ideal.ofBits .f32 0x00000000#32 < sumsq W p := by
  have e := congrFun h ix0
  dsimp only [fn, fn_part1] at e
  simp only [andi] at e
  simp only [IntOp.andi_eq_one] at e
  obtain ⟨⟨⟨hX, hW⟩, -⟩, hS⟩ := e
  refine ⟨fun i => ?_, fun i => ?_, fun p => ?_⟩
  · exact real_of_abs_lt (X i) (Host.reduce_andi_all _ _ _ _ ix0 hX i)
  · exact real_of_abs_lt (W i) (Host.reduce_andi_all _ _ _ _ ix0 hW i)
  · have hp := Host.reduce_andi_all _ _ _ _ ix0 hS (ix1 p)
    rw [cmpf_apply, Ideal.cmpf_def, sumsq_read,
      broadcastInDim_apply ![] Facts.bcast_S_S65536 _ (ix1 p) ix0 (fun a => a.elim0)] at hp
    exact pos_of_cmp (sumsq W p) hp

end Cert.NormDot.Pre

end
-- ==== Proof.lean ====
/-
  A per-pixel normalised channel contraction: for x : [16, 64, 256, 256], weight : [65536, 1, 64, 1] (one 64-vector per pixel,
  pixel number 256·h + w) and bias : [1, 1, 256, 256],

      out[b, 0, h, w] = ∑_c x[b, c, h, w] · weight[p, c] / ‖weight[p, ·]‖₂ + bias[0, 0, h, w],      p = 256·h + w.

  The reference divides the pixel's weight vector by its norm √S(p), S(p) = ∑_c weight[p, c]², and then contracts with x.
  The kernel contracts x with the raw weight vector and multiplies the sum by S(p)^(-1/2), computed once per pixel before the
  grid; its grid of 2 × 2 × 8 points tiles the result by [2, 1, 128, 128] blocks. On the extended reals the two results are
  equal when every entry of x and weight is a real number and S(p) > 0 at every pixel (Spec.lean, over LibNormDot.lean's
  one law: a common factor leaves a finite sum); at a pixel with S(p) = 0 the reference's quotient 0 / 0 is not a number,
  and the precondition keeps the programs away from it.

  The pieces: the reference's run read index by index (RefValue.lean); one grid point of the kernel as a function of its four
  blocks (KernelPoint.lean); the three arrays the host makes before the grid (KernelArrays.lean); the 32 blocks assembled into
  the result array (KernelBlocks.lean); the precondition read (PreRead.lean). The three frames are the programs' runs with
  the result dropped; the idealisation rewrote nothing, so there is nothing to preserve.
-/
import proofs.«174681_j10075993276859_2_alg».proof.Defs
import proofs.«174681_j10075993276859_2_alg».proof.Proof.Gen.Kernel
import proofs.«174681_j10075993276859_2_alg».proof.Proof.Gen.Kernel.Frame
import proofs.«174681_j10075993276859_2_alg».proof.Proof.Gen.KernelIdeal
import proofs.«174681_j10075993276859_2_alg».proof.Proof.Gen.KernelIdeal.Frame
import proofs.«174681_j10075993276859_2_alg».proof.Proof.Gen.KernelIdeal.Value
import proofs.«174681_j10075993276859_2_alg».proof.Proof.Gen.ReferenceIdeal
import proofs.«174681_j10075993276859_2_alg».proof.Proof.Gen.ReferenceIdeal.Run
import proofs.«174681_j10075993276859_2_alg».proof.Proof.Gen.ReferenceIdeal.Read
import proofs.«174681_j10075993276859_2_alg».proof.Proof.Gen.Pre_finite_inputs
import proofs.«174681_j10075993276859_2_alg».proof.Proof.KernelBlocks
import proofs.«174681_j10075993276859_2_alg».proof.Proof.RefValue
import proofs.«174681_j10075993276859_2_alg».proof.Proof.PreRead

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at one array: the kernel's run ends at `Gker` of the arguments, the reference's at `Gref` of arguments
    that agree with them, and under the precondition (real entries, positive squared norms) the two functions are equal. -/
theorem algebraic : Cert.algebraic_KernelIdeal_ReferenceIdeal := by
  intro m ρ m' ρ' hpre hagree
  refine ⟨_, Cert.NormDot.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hS⟩ := Cert.NormDot.Pre.decode _ _ _ (hpre c)
  rw [Cert.ReferenceIdeal.Read.val_main_v15_eq, Cert.NormDot.Ref.val_eq_Gref, (hagree c).1, (hagree c).2.1, (hagree c).2.2]
  exact (Cert.NormDot.Gker_eq_Gref _ _ _ hX hW hS).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
